-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S1x1x2048x2048 : Shape := ⟨4, ![1, 1, 2048, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel
  bcast_S_S1x1x2048x2048 : S_.BroadcastsInDim S1x1x2048x2048 (![] : Fin 0 → Fin S1x1x2048x2048.rank)
  reducesTo_S1x1x2048x2048_S_d0_1_2_3 : S1x1x2048x2048.ReducesTo [0, 1, 2, 3] S_

variable [Facts]

def fn_part1 {F : FTy → Type} [FloatOps F] (main_v13 : IVec S_ 1) (main_v16 : IVec S1x1x2048x2048 1) : IVec S_ 1 :=
  let main_c_5 : IVec S_ 1 := constantI S_ 1 1#1
  let main_v17 : IVec S_ 1 := (fun x v => Host.reduce IntOp.andi x v reducesTo_S1x1x2048x2048_S_d0_1_2_3 h_S_) main_v16 main_c_5
  let main_v18 : IVec S_ 1 := andi main_v13 main_v17
  main_v18

def fn {F : FTy → Type} [FloatOps F] (main_arg0 : FVec F S4x16x2048x64 .f32) (main_arg1 : FVec F S4x16x2048x64 .f32) (main_arg2 : FVec F S4x16x2048x64 .f32) (main_arg3 : FVec F S1x1x2048x2048 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  let main_v14 : FVec F S1x1x2048x2048 .f32 := Host.absf main_arg3
  let main_cst_4 : FVec F S_ .f32 := constant S_ .f32 0x7F800000#32
  let main_v15 : FVec F S1x1x2048x2048 .f32 := broadcastInDim S1x1x2048x2048 ![] bcast_S_S1x1x2048x2048 main_cst_4
  let main_v16 : IVec S1x1x2048x2048 1 := cmpf .olt main_v14 main_v15
  fn_part1 (F := F) main_v13 main_v16
-- ==== Kernel.lean ====
abbrev S4x16x2048x64 : Shape := ⟨4, ![4, 16, 2048, 64]⟩
abbrev S1x1x2048x2048 : Shape := ⟨4, ![1, 1, 2048, 2048]⟩
abbrev S64x2048x64 : Shape := ⟨3, ![64, 2048, 64]⟩
abbrev S2048x2048 : Shape := ⟨2, ![2048, 2048]⟩
abbrev S64x2048x2048 : Shape := ⟨3, ![64, 2048, 2048]⟩
abbrev S1x256x64 : Shape := ⟨3, ![1, 256, 64]⟩
abbrev S1x2048x64 : Shape := ⟨3, ![1, 2048, 64]⟩
abbrev S1x256x2048 : Shape := ⟨3, ![1, 256, 2048]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S4x16x2048x2048 : Shape := ⟨4, ![4, 16, 2048, 2048]⟩

abbrev nBuf : Space → Nat
  | .hbm => 12
  | .vmem => 11
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S1x1x2048x2048, .f32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S2048x2048, .f32⟩
  | .hbm, ⟨8, _⟩ => ⟨S64x2048x2048, .f32⟩
  | .hbm, ⟨9, _⟩ => ⟨S64x2048x64, .f32⟩
  | .hbm, ⟨10, _⟩ => ⟨S4x16x2048x64, .f32⟩
  | .hbm, ⟨11, _⟩ => ⟨S4x16x2048x2048, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S2048x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x64, .f32⟩
  | .local _ .vmem, ⟨10, _⟩ => ⟨S1x256x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 8], ![false, false]⟩

def k0_mult1 (i : grid0.Coords) : BitVec 32 :=
  let arg1 : BitVec 32 := BitVec.ofNat 32 (i 1).val
  let c256_i32 : BitVec 32 := 256#32
  let v13 : BitVec 32 := Scalar.muli arg1 c256_i32
  v13
def k0_off1 (i : grid0.Coords) : Fin 2 → Nat :=
  let arg1 : BitVec 32 := BitVec.ofNat 32 (i 1).val
  let c256_i32 : BitVec 32 := 256#32
  let v13 : BitVec 32 := Scalar.muli arg1 c256_i32
  let v14 : BitVec 32 := v13
  let v15 : Index := Scalar.indexCast v14
  let c0_9 : Index := 0#32
  ![v15.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x16x2048x64_S64x2048x64 : S4x16x2048x64.ShapeCasts S64x2048x64
  shapeCasts_S1x1x2048x2048_S2048x2048 : S1x1x2048x2048.ShapeCasts S2048x2048
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x64_S1x256x64 : S256x64.ShapeCasts S1x256x64
  shapeCasts_S64x2048x64_S4x16x2048x64 : S64x2048x64.ShapeCasts S4x16x2048x64
  shapeCasts_S64x2048x2048_S4x16x2048x2048 : S64x2048x2048.ShapeCasts S4x16x2048x2048
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x2048.size a ≤ S2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S64x2048x64.size a
  hwx0_0 : ∀ i : grid0.Coords, EltTy.bits .f32 = 32 ∨ (Rect.block (s := S64x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .f32 = 32 ∨ (Rect.block (s := S2048x2048) S2048x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S64x2048x2048.size a
  hwx0_4 : ∀ i : grid0.Coords, EltTy.bits .f32 = 32 ∨ (Rect.block (s := S64x2048x2048) S1x256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x64.size a ≤ S64x2048x64.size a
  hwx0_5 : ∀ i : grid0.Coords, EltTy.bits .f32 = 32 ∨ (Rect.block (s := S64x2048x64) S1x256x64.size (cc0_transform_5 i) (hinb0_5 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x256x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S1x1x2048x2048 : Shape := ⟨4, ![1, 1, 2048, 2048]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S1x1x2048x2048, .f32⟩
  | .hbm, ⟨4, _⟩ => ⟨S4x16x2048x2048, .f32⟩
  | .hbm, ⟨5, _⟩ => ⟨S_, .f32⟩
  | .hbm, ⟨6, _⟩ => ⟨S4x16x2048x2048, .f32⟩
  | .hbm, ⟨7, _⟩ => ⟨S4x16x2048x2048, .f32⟩
  | .hbm, ⟨8, _⟩ => ⟨S4x16x2048x2048, .f32⟩
  | .hbm, ⟨9, _⟩ => ⟨S4x16x2048x2048, .f32⟩
  | .hbm, ⟨10, _⟩ => ⟨S4x16x2048x2048, .f32⟩
  | .hbm, ⟨11, _⟩ => ⟨S_, .f32⟩
  | .hbm, ⟨12, _⟩ => ⟨S4x16x2048, .f32⟩
  | .hbm, ⟨13, _⟩ => ⟨S4x16x2048x1, .f32⟩
  | .hbm, ⟨14, _⟩ => ⟨S_, .f32⟩
  | .hbm, ⟨15, _⟩ => ⟨S4x16x2048x1, .f32⟩
  | .hbm, ⟨16, _⟩ => ⟨S4x16x2048x1, .f32⟩
  | .hbm, ⟨17, _⟩ => ⟨S4x16x2048x2048, .f32⟩
  | .hbm, ⟨18, _⟩ => ⟨S4x16x2048x2048, .f32⟩
  | .hbm, ⟨19, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S1x1x2048x2048_S4x16x2048x2048_0_1_2_3 : S1x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S4x16x2048_S4x16x2048x1_0_1_2 : S4x16x2048.BroadcastsInDim S4x16x2048x1 (![0, 1, 2] : Fin 3 → Fin S4x16x2048x1.rank)
  bcast_S_S4x16x2048x1 : S_.BroadcastsInDim S4x16x2048x1 (![] : Fin 0 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Spec.lean ====
/-
  The mathematics both programs compute, stated once over the extended reals and over coordinates
  (batch b, head h, query row q, key column k, feature d):

    weight b h q k = exp ((Σ_d Q[b,h,q,d] · K[b,h,k,d]) · 1/8) · M[0,0,q,k]
    denom  b h q   = (Σ_k weight b h q k) + ε
    prob   b h q k = weight b h q k / denom b h q
    ctx    b h q d = Σ_k prob b h q k · V[b,h,k,d]

  The scale 1/8 and ε are kept as the f32 words the two programs share (they are never evaluated), the
  quotient is the extended reals' total division, and no finiteness of the inputs is used anywhere: the two
  programs apply the same operations to the same numbers, only tiled and laid out differently.
-/
import Idealize.ShloMosaic.PureOps.Ideal
import Idealize.ShloMosaic.Lib.ValueIdx

noncomputable section

namespace Cert.Attention

open Idealize.ShloMosaic Idealize.ShloMosaic.ValueIdx

/-- A [4, 16, 2048, 64] array of extended reals: queries, keys, values, and the context result. -/
abbrev Arr := (⟨4, ![4, 16, 2048, 64]⟩ : Shape).Idx → EReal
/-- The [1, 1, 2048, 2048] multiplicative mask, shared by every batch and head. -/
abbrev Mask := (⟨4, ![1, 1, 2048, 2048]⟩ : Shape).Idx → EReal
/-- The [4, 16, 2048, 2048] array of attention probabilities. -/
abbrev Probs := (⟨4, ![4, 16, 2048, 2048]⟩ : Shape).Idx → EReal

/-- The score scale 1/8 = 1/sqrt 64, as the f32 word both programs carry. -/
def scale : EReal := Ideal.ofBits .f32 0x3E000000#32
/-- The ε added to every row sum, as the f32 word both programs carry. -/
def eps : EReal := Ideal.ofBits .f32 0x322BCC77#32

/-- The unnormalised weight of key k for query q: the exponential of the scaled dot product, masked after
    the exponential. -/
def weight (Q K : Arr) (M : Mask) (b : Fin 4) (h : Fin 16) (q k : Fin 2048) : EReal :=
  Ideal.exp ((∑ d : Fin 64, Q (ix4 b h q d) * K (ix4 b h k d)) * scale) * M (ix4 0 0 q k)

/-- The normaliser of query row q: the sum of its weights over all keys, plus ε. -/
def denom (Q K : Arr) (M : Mask) (b : Fin 4) (h : Fin 16) (q : Fin 2048) : EReal :=
  (∑ k : Fin 2048, weight Q K M b h q k) + eps

/-- The attention probability: weight over normaliser. -/
def prob (Q K : Arr) (M : Mask) (b : Fin 4) (h : Fin 16) (q k : Fin 2048) : EReal :=
  Ideal.div (weight Q K M b h q k) (denom Q K M b h q)

/-- The probabilities as an array. -/
def attn (Q K : Arr) (M : Mask) : Probs := fun i => prob Q K M (i 0) (i 1) (i 2) (i 3)

/-- The context: each query row's probabilities applied to the values. -/
def ctx (Q K V : Arr) (M : Mask) : Arr := fun i =>
  ∑ k : Fin 2048, prob Q K M (i 0) (i 1) (i 2) k * V (ix4 (i 0) (i 1) k (i 3))

end Cert.Attention

end
-- ==== Proof.RefSpec.lean ====
/-
  The reference program computes the specification.  Its result terms, read one operation at a time at an
  index (the generated read-at-an-index lemmas), are the specification's formulas at that index's coordinates:
  the batched dot products contract the feature axis, resp. the key axis; the reduction's initial value is the
  zero word, which is the real 0; the broadcasts read the mask at (0, 0, q, k) and the row normaliser at (b, h, q).
-/
import proofs.«135013_j50483045597399_2_alg».proof.Proof.Gen.ReferenceIdeal.Read
import proofs.«135013_j50483045597399_2_alg».proof.Proof.Spec
import Idealize.ShloMosaic.PureOps.Ideal.Laws

noncomputable section

namespace Cert.Attention.Ref

open Idealize.ShloMosaic Idealize.ShloMosaic.ValueIdx
open Cert.ReferenceIdeal Cert.ReferenceIdeal.Read Cert.Attention

/-- The masked exponential of the scaled scores is the specification's weight. -/
theorem weight_eq (Q K : Arr) (M : Mask) (i : S4x16x2048x2048.Idx) :
    val_main_v5 (F := Ideal) Q K M i = weight Q K M (i 0) (i 1) (i 2) (i 3) := by
  have hl : ∀ d : Fin 64, lidx_main_v0 i d = ix4 (i 0) (i 1) (i 2) d := fun d => funext fun a => by
    match a with | ⟨0, _⟩ => rfl | ⟨1, _⟩ => rfl | ⟨2, _⟩ => rfl | ⟨3, _⟩ => rfl
  have hr : ∀ d : Fin 64, ridx_main_v0 i d = ix4 (i 0) (i 1) (i 3) d := fun d => funext fun a => by
    match a with | ⟨0, _⟩ => rfl | ⟨1, _⟩ => rfl | ⟨2, _⟩ => rfl | ⟨3, _⟩ => rfl
  have hm : idx_main_v4 i = ix4 0 0 (i 2) (i 3) := funext fun a => by
    match a with | ⟨0, _⟩ => rfl | ⟨1, _⟩ => rfl | ⟨2, _⟩ => rfl | ⟨3, _⟩ => rfl
  rw [val_main_v5_apply, val_main_v3_apply, val_main_v2_apply, val_main_v0_apply, val_main_v1_apply,
    val_main_cst_apply, val_main_v4_apply]
  simp only [hl, hr, hm]
  rfl

/-- The row normaliser the reference broadcasts along the key axis is the specification's. -/
theorem denom_eq (Q K : Arr) (M : Mask) (i : S4x16x2048x2048.Idx) :
    val_main_v10 (F := Ideal) Q K M i = denom Q K M (i 0) (i 1) (i 2) := by
  rw [val_main_v10_apply, val_main_v9_apply, val_main_v7_apply, val_main_v6_apply, val_main_v8_apply,
    val_main_cst_1_apply, val_main_cst_0_apply]
  simp only [weight_eq]
  show (Ideal.ofBits .f32 0x00000000#32 + ∑ k : Fin 2048, weight Q K M (i 0) (i 1) (i 2) k) + Ideal.ofBits .f32 0x322BCC77#32 = _
  rw [Ideal.ofBits_zero_f32, zero_add]
  rfl

/-- The reference's second result, the probabilities, is the specification's. -/
theorem attn_eq (Q K : Arr) (M : Mask) : val_main_v11 (F := Ideal) Q K M = attn Q K M := by
  funext i
  rw [val_main_v11_apply, weight_eq, denom_eq]
  rfl

/-- The reference's first result, the context, is the specification's. -/
theorem ctx_eq (Q K V : Arr) (M : Mask) : val_main_v12 (F := Ideal) Q K V M = ctx Q K V M := by
  funext i
  have hl : ∀ k : Fin 2048, lidx_main_v12 i k = ix4 (i 0) (i 1) (i 2) k := fun k => funext fun a => by
    match a with | ⟨0, _⟩ => rfl | ⟨1, _⟩ => rfl | ⟨2, _⟩ => rfl | ⟨3, _⟩ => rfl
  have hr : ∀ k : Fin 2048, ridx_main_v12 i k = ix4 (i 0) (i 1) k (i 3) := fun k => funext fun a => by
    match a with | ⟨0, _⟩ => rfl | ⟨1, _⟩ => rfl | ⟨2, _⟩ => rfl | ⟨3, _⟩ => rfl
  rw [val_main_v12_apply, attn_eq]
  simp only [hl, hr]
  rfl

end Cert.Attention.Ref

end
-- ==== Proof.Payload.lean ====
/-
  What the kernel body computes on one grid point's blocks, read index by index over the extended reals.

  The body sees a block of 256 query rows (x0, [1,256,64]), all 2048 key rows and value rows of the same head
  (x1, x2, [1,2048,64]) and the 256 mask rows that belong to the query rows (xm, [256,2048]).  It forms the
  256 × 2048 scores by one matrix product contracting the 64 features, scales them by 1/8, exponentiates,
  multiplies by the mask rows, sums every row over its 2048 columns, adds ε, divides each entry by its row's
  normaliser, and multiplies the quotients with the value rows (contracting the 2048 keys).  Changes of float
  format are the identity on the extended reals; a matrix product into the zero accumulator is the plain sum of
  products; a row reduction is the plain sum over the row.
-/
import proofs.«135013_j50483045597399_2_alg».proof.Proof.Gen.KernelIdeal.Skeleton
import proofs.«135013_j50483045597399_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Attention.Body

open Idealize.ShloMosaic Idealize.ShloMosaic.ValueIdx
open Cert.KernelIdeal Cert.KernelIdeal.Gen Cert.Attention

/-- The dimension numbers of the score product (queries × keys, both contracting their feature axis). -/
abbrev DS := dot_S256x64_S2048x64_S256x2048_1_1_0_0_n_n
/-- The dimension numbers of the context product (probabilities × values, contracting the key axis). -/
abbrev DC := dot_S256x2048_S2048x64_S256x64_1_0_0_1_n_n

/-! ## The two matrix products' operand indices, coordinate by coordinate -/

theorem ds_lhs_0 (j : S256x2048.Idx) (q : DS.contr.Idx) : (DS.lhsIdx j q 0).val = (j 0).val := by
  unfold DotDims.lhsIdx
  rw [dif_neg (show ¬(0 : Fin S256x64.rank) ∈ DS.lhsBatch by decide), dif_pos (show (0 : Fin S256x64.rank) ∈ DS.lhsNonContracting by decide)]
  rfl
theorem ds_lhs_1 (j : S256x2048.Idx) (q : DS.contr.Idx) : (DS.lhsIdx j q 1).val = (q ⟨0, by decide⟩).val :=
  DS.lhsIdx_val_of_single rfl j q
theorem ds_rhs_0 (j : S256x2048.Idx) (q : DS.contr.Idx) : (DS.rhsIdx j q 0).val = (j 1).val := by
  unfold DotDims.rhsIdx
  rw [dif_neg (show ¬(0 : Fin S2048x64.rank) ∈ DS.rhsBatch by decide), dif_pos (show (0 : Fin S2048x64.rank) ∈ DS.rhsNonContracting by decide)]
  rfl
theorem ds_rhs_1 (j : S256x2048.Idx) (q : DS.contr.Idx) : (DS.rhsIdx j q 1).val = (q ⟨0, by decide⟩).val :=
  DS.rhsIdx_val_of_single rfl j q

theorem dc_lhs_0 (j : S256x64.Idx) (q : DC.contr.Idx) : (DC.lhsIdx j q 0).val = (j 0).val := by
  unfold DotDims.lhsIdx
  rw [dif_neg (show ¬(0 : Fin S256x2048.rank) ∈ DC.lhsBatch by decide), dif_pos (show (0 : Fin S256x2048.rank) ∈ DC.lhsNonContracting by decide)]
  rfl
theorem dc_lhs_1 (j : S256x64.Idx) (q : DC.contr.Idx) : (DC.lhsIdx j q 1).val = (q ⟨0, by decide⟩).val :=
  DC.lhsIdx_val_of_single rfl j q
theorem dc_rhs_0 (j : S256x64.Idx) (q : DC.contr.Idx) : (DC.rhsIdx j q 0).val = (q ⟨0, by decide⟩).val :=
  DC.rhsIdx_val_of_single rfl j q
theorem dc_rhs_1 (j : S256x64.Idx) (q : DC.contr.Idx) : (DC.rhsIdx j q 1).val = (j 1).val := by
  unfold DotDims.rhsIdx
  rw [dif_neg (show ¬(1 : Fin S2048x64.rank) ∈ DC.rhsBatch by decide), dif_pos (show (1 : Fin S2048x64.rank) ∈ DC.rhsNonContracting by decide)]
  rfl

/-! ## The non-pointwise operations of the body, each read at an index -/

/-- The score product at (r, k): the dot product of query row r and key row k over the 64 features. -/
theorem scores_apply (x0 : Vec Ideal S1x256x64 .f32) (x1 : Vec Ideal S1x2048x64 .f32) (r : Fin 256) (k : Fin 2048) :
    matmul (F := Ideal) DS none (truncf .bf16 (shapeCast S256x64 x0 shapeCasts_S1x256x64_S256x64) bitsLt_bf16_f32)
        (truncf .bf16 (shapeCast S2048x64 x1 shapeCasts_S1x2048x64_S2048x64) bitsLt_bf16_f32)
        (constant (F := Ideal) S256x2048 .f32 0x00000000#32) (ix2 r k)
      = ∑ d : Fin 64, x0 (ix3 (0 : Fin 1) r d) * x1 (ix3 (0 : Fin 1) k d) := by
  simp only [matmul]
  rw [Ideal.matmul_constant_zero_apply, ← Equiv.sum_comp (contrEquiv1 DS 64 rfl rfl).symm]
  refine Finset.sum_congr rfl fun d _ => ?_
  have hd := contrEquiv1_symm_val DS 64 rfl rfl d
  have el : DS.lhsIdx (ix2 r k) ((contrEquiv1 DS 64 rfl rfl).symm d) = ix2 r d := funext fun a => Fin.ext (by
    match a with
    | ⟨0, _⟩ => exact ds_lhs_0 _ _
    | ⟨1, _⟩ => exact (ds_lhs_1 _ _).trans hd)
  have er : DS.rhsIdx (ix2 r k) ((contrEquiv1 DS 64 rfl rfl).symm d) = ix2 k d := funext fun a => Fin.ext (by
    match a with
    | ⟨0, _⟩ => exact ds_rhs_0 _ _
    | ⟨1, _⟩ => exact (ds_rhs_1 _ _).trans hd)
  rw [el, er]
  show shapeCast S256x64 x0 _ (ix2 r d) * shapeCast S2048x64 x1 _ (ix2 k d) = _
  rw [shapeCast_1ab_ab_apply, shapeCast_1ab_ab_apply]

/-- The context product at (r, d): row r of the left operand applied to column d of the value rows. -/
theorem context_apply (p : FVec Ideal S256x2048 .f32) (x2 : Vec Ideal S1x2048x64 .f32) (r : Fin 256) (d : Fin 64) :
    matmul (F := Ideal) DC none (truncf .bf16 p bitsLt_bf16_f32)
        (truncf .bf16 (shapeCast S2048x64 x2 shapeCasts_S1x2048x64_S2048x64) bitsLt_bf16_f32)
        (constant (F := Ideal) S256x64 .f32 0x00000000#32) (ix2 r d)
      = ∑ k : Fin 2048, p (ix2 r k) * x2 (ix3 (0 : Fin 1) k d) := by
  simp only [matmul]
  rw [Ideal.matmul_constant_zero_apply, ← Equiv.sum_comp (contrEquiv1 DC 2048 rfl rfl).symm]
  refine Finset.sum_congr rfl fun k _ => ?_
  have hk := contrEquiv1_symm_val DC 2048 rfl rfl k
  have el : DC.lhsIdx (ix2 r d) ((contrEquiv1 DC 2048 rfl rfl).symm k) = ix2 r k := funext fun a => Fin.ext (by
    match a with
    | ⟨0, _⟩ => exact dc_lhs_0 _ _
    | ⟨1, _⟩ => exact (dc_lhs_1 _ _).trans hk)
  have er : DC.rhsIdx (ix2 r d) ((contrEquiv1 DC 2048 rfl rfl).symm k) = ix2 k d := funext fun a => Fin.ext (by
    match a with
    | ⟨0, _⟩ => exact (dc_rhs_0 _ _).trans hk
    | ⟨1, _⟩ => exact dc_rhs_1 _ _)
  rw [el, er]
  show p (ix2 r k) * shapeCast S2048x64 x2 _ (ix2 k d) = _
  rw [shapeCast_1ab_ab_apply]

/-- The row reduction at row r: the sum of the row's 2048 entries. -/
theorem rowsum_apply (w : FVec Ideal S256x2048 .f32) (hφ : FKind.Formats .f32)
    (hacc : (0x00000000#32 : BitVec (FTy.bits .f32)) = FKind.add.neutral .f32 hφ) (r : Fin 256) :
    multiReduction (F := Ideal) .add [1] S256 w 0x00000000#32 reduces_S256x2048_S256 hφ hacc (ix1 r) = ∑ k : Fin 2048, w (ix2 r k) := by
  refine (Ideal.multiReduction_add_single w _ reduces_S256x2048_S256 hφ hacc (ix1 r)).trans ?_
  show ∑ k : Fin 2048, w (reduces_S256x2048_S256.lift (ix1 r) k) = _
  refine Finset.sum_congr rfl fun k _ => congrArg w (funext fun a => Fin.ext ?_)
  match a with
  | ⟨0, _⟩ => rfl
  | ⟨1, _⟩ => rfl

/-- A vector of 256 row values viewed as a [256, 1] column reads row r at (r, 0). -/
theorem column_apply (v : FVec Ideal S256 .f32) (h : S256.ShapeCasts S256x1) (r : Fin 256) (u : Fin 1) :
    shapeCast S256x1 v h (ix2 r u) = v (ix1 r) :=
  shapeCast_apply v h _ _ (by
    have hu : u.val = 0 := by omega
    rw [Shape.rowMajor_val_one, Shape.rowMajor_val_two]
    show r.val = r.val * 1 + u.val
    omega)

/-- A [256, 1] column broadcast along the 2048 columns reads, at (r, k), the column's entry of row r. -/
theorem spread_apply (v : FVec Ideal S256x1 .f32) (h : S256x1.Broadcasts S256x2048) (r : Fin 256) (k : Fin 2048) :
    broadcastTo S256x2048 v h (ix2 r k) = v (ix2 r (0 : Fin 1)) := by
  refine broadcastTo_apply v h (ix2 r k) (ix2 r (0 : Fin 1)) fun ax => ?_
  match ax with
  | ⟨0, _⟩ =>
    show r.val = if (256 : Nat) = 1 then 0 else r.val
    rw [if_neg (by decide)]
  | ⟨1, _⟩ =>
    show 0 = if (1 : Nat) = 1 then 0 else k.val
    rw [if_pos rfl]

/-! ## The body's three payloads -/

/-- The masked exponentials on the block: entry (r, k) from query row r, key row k and the mask entry. -/
def bweight (x0 : Vec Ideal S1x256x64 .f32) (x1 : Vec Ideal S1x2048x64 .f32) (xm : Vec Ideal S256x2048 .f32)
    (r : Fin 256) (k : Fin 2048) : EReal :=
  Ideal.exp ((∑ d : Fin 64, x0 (ix3 (0 : Fin 1) r d) * x1 (ix3 (0 : Fin 1) k d)) * scale) * xm (ix2 r k)

/-- The quotients on the block: each masked exponential over its row's sum plus ε. -/
def bprob (x0 : Vec Ideal S1x256x64 .f32) (x1 : Vec Ideal S1x2048x64 .f32) (xm : Vec Ideal S256x2048 .f32)
    (r : Fin 256) (k : Fin 2048) : EReal :=
  Ideal.div (bweight x0 x1 xm r k) ((∑ k' : Fin 2048, bweight x0 x1 xm r k') + eps)

/-- The body's masked exponentials as the vector the printed body names before the row reduction. -/
def wvec (x0 : Vec Ideal S1x256x64 .f32) (x1 : Vec Ideal S1x2048x64 .f32) (xm : Vec Ideal S256x2048 .f32) :
    FVec Ideal S256x2048 .f32 :=
  mulf (exp (mulf (matmul (F := Ideal) DS none (truncf .bf16 (shapeCast S256x64 x0 shapeCasts_S1x256x64_S256x64) bitsLt_bf16_f32)
        (truncf .bf16 (shapeCast S2048x64 x1 shapeCasts_S1x2048x64_S2048x64) bitsLt_bf16_f32)
        (constant (F := Ideal) S256x2048 .f32 0x00000000#32))
      (broadcast S256x2048 (Scalar.ofBits (F := Ideal) .f32 0x3E000000#32))))
    (shapeCast S256x2048 xm shapeCasts_S256x2048_S256x2048)

theorem wvec_apply (x0 : Vec Ideal S1x256x64 .f32) (x1 : Vec Ideal S1x2048x64 .f32) (xm : Vec Ideal S256x2048 .f32)
    (r : Fin 256) (k : Fin 2048) : wvec x0 x1 xm (ix2 r k) = bweight x0 x1 xm r k := by
  unfold wvec bweight
  show Ideal.exp (matmul (F := Ideal) DS none _ _ _ (ix2 r k) * Ideal.ofBits .f32 0x3E000000#32) * shapeCast S256x2048 xm _ (ix2 r k) = _
  rw [scores_apply, shapeCast_self]
  rfl

/-- The first payload (the quotients, [256, 2048]) at (r, k). -/
theorem pay1_apply (x0 : Vec Ideal S1x256x64 .f32) (x1 : Vec Ideal S1x2048x64 .f32) (xm : Vec Ideal S256x2048 .f32)
    (r : Fin 256) (k : Fin 2048) : k0_pay1 x0 x1 xm (ix2 r k) = bprob x0 x1 xm r k := by
  have e : k0_pay1 x0 x1 xm = divf (wvec x0 x1 xm)
      (broadcastTo S256x2048 (addf (shapeCast S256x1 (multiReduction (F := Ideal) .add [1] S256 (wvec x0 x1 xm) 0x00000000#32 reduces_S256x2048_S256 (.inl rfl) rfl) shapeCasts_S256_S256x1)
        (broadcast S256x1 (Scalar.ofBits (F := Ideal) .f32 0x322BCC77#32))) broadcasts_S256x1_S256x2048) := rfl
  rw [e]
  show Ideal.div (wvec x0 x1 xm (ix2 r k)) (broadcastTo S256x2048 _ _ (ix2 r k)) = _
  rw [spread_apply]
  show Ideal.div _ (shapeCast S256x1 _ _ (ix2 r (0 : Fin 1)) + Ideal.ofBits .f32 0x322BCC77#32) = _
  rw [column_apply]
  unfold bprob
  refine congrArg₂ Ideal.div (wvec_apply x0 x1 xm r k) (congrArg (· + eps) ?_)
  exact (rowsum_apply _ _ _ r).trans (Finset.sum_congr rfl fun k' _ => wvec_apply x0 x1 xm r k')

/-- The stored probabilities block ([1, 256, 2048]) at (0, r, k). -/
theorem pay2_apply (x0 : Vec Ideal S1x256x64 .f32) (x1 : Vec Ideal S1x2048x64 .f32) (xm : Vec Ideal S256x2048 .f32)
    (u : Fin 1) (r : Fin 256) (k : Fin 2048) : k0_pay2 x0 x1 xm (ix3 u r k) = bprob x0 x1 xm r k := by
  unfold k0_pay2
  exact (shapeCast_ab_1ab_apply _ _ u r k).trans (pay1_apply x0 x1 xm r k)

/-- The stored context block ([1, 256, 64]) at (0, r, d): row r's quotients applied to the value rows. -/
theorem pay3_apply (x0 : Vec Ideal S1x256x64 .f32) (x1 x2 : Vec Ideal S1x2048x64 .f32) (xm : Vec Ideal S256x2048 .f32)
    (u : Fin 1) (r : Fin 256) (d : Fin 64) :
    k0_pay3 x0 x1 x2 xm (ix3 u r d) = ∑ k : Fin 2048, bprob x0 x1 xm r k * x2 (ix3 (0 : Fin 1) k d) := by
  unfold k0_pay3
  refine (shapeCast_ab_1ab_apply _ _ u r d).trans ?_
  refine (context_apply (k0_pay1 x0 x1 xm) x2 r d).trans ?_
  simp only [pay1_apply]

end Cert.Attention.Body

end
-- ==== Proof.BlockSpec.lean ====
/-
  One grid point's block is a block of the specification.  If the query block holds rows q0 … q0 + 255 of
  batch b and head h, the key and value blocks all rows of the same batch and head, and the mask rows are rows
  q0 … q0 + 255 of the mask, then the body's quotients are the specification's probabilities of those rows, and
  its context block their contexts.
-/
import proofs.«135013_j50483045597399_2_alg».proof.Proof.Payload

noncomputable section

namespace Cert.Attention.Body

open Idealize.ShloMosaic Idealize.ShloMosaic.ValueIdx
open Cert.KernelIdeal Cert.KernelIdeal.Gen Cert.Attention

/-- Row r of the block is row q0 + r of the array. -/
abbrev rowOf (q0 : Nat) (hq0 : q0 + 256 ≤ 2048) (r : Fin 256) : Fin 2048 := ⟨q0 + r.val, by have := r.isLt; omega⟩

variable (Q K V : Arr) (M : Mask) (b : Fin 4) (h : Fin 16) (q0 : Nat) (hq0 : q0 + 256 ≤ 2048)
variable (x0 : Vec Ideal S1x256x64 .f32) (x1 x2 : Vec Ideal S1x2048x64 .f32) (xm : Vec Ideal S256x2048 .f32)

theorem bweight_eq
    (h0 : ∀ (r : Fin 256) (d : Fin 64), x0 (ix3 (0 : Fin 1) r d) = Q (ix4 b h (rowOf q0 hq0 r) d))
    (h1 : ∀ (k : Fin 2048) (d : Fin 64), x1 (ix3 (0 : Fin 1) k d) = K (ix4 b h k d))
    (hm : ∀ (r : Fin 256) (k : Fin 2048), xm (ix2 r k) = M (ix4 (0 : Fin 1) (0 : Fin 1) (rowOf q0 hq0 r) k))
    (r : Fin 256) (k : Fin 2048) : bweight x0 x1 xm r k = weight Q K M b h (rowOf q0 hq0 r) k := by
  unfold bweight weight
  simp only [h0, h1, hm]

theorem bprob_eq
    (h0 : ∀ (r : Fin 256) (d : Fin 64), x0 (ix3 (0 : Fin 1) r d) = Q (ix4 b h (rowOf q0 hq0 r) d))
    (h1 : ∀ (k : Fin 2048) (d : Fin 64), x1 (ix3 (0 : Fin 1) k d) = K (ix4 b h k d))
    (hm : ∀ (r : Fin 256) (k : Fin 2048), xm (ix2 r k) = M (ix4 (0 : Fin 1) (0 : Fin 1) (rowOf q0 hq0 r) k))
    (r : Fin 256) (k : Fin 2048) : bprob x0 x1 xm r k = prob Q K M b h (rowOf q0 hq0 r) k := by
  unfold bprob prob denom
  simp only [bweight_eq Q K M b h q0 hq0 x0 x1 xm h0 h1 hm]

/-- The probabilities block the body stores is the block of the specification's probabilities. -/
theorem probs_block
    (h0 : ∀ (r : Fin 256) (d : Fin 64), x0 (ix3 (0 : Fin 1) r d) = Q (ix4 b h (rowOf q0 hq0 r) d))
    (h1 : ∀ (k : Fin 2048) (d : Fin 64), x1 (ix3 (0 : Fin 1) k d) = K (ix4 b h k d))
    (hm : ∀ (r : Fin 256) (k : Fin 2048), xm (ix2 r k) = M (ix4 (0 : Fin 1) (0 : Fin 1) (rowOf q0 hq0 r) k))
    (u : Fin 1) (r : Fin 256) (k : Fin 2048) :
    k0_pay2 x0 x1 xm (ix3 u r k) = attn Q K M (ix4 b h (rowOf q0 hq0 r) k) :=
  (pay2_apply x0 x1 xm u r k).trans (bprob_eq Q K M b h q0 hq0 x0 x1 xm h0 h1 hm r k)

/-- The context block the body stores is the block of the specification's context. -/
theorem ctx_block
    (h0 : ∀ (r : Fin 256) (d : Fin 64), x0 (ix3 (0 : Fin 1) r d) = Q (ix4 b h (rowOf q0 hq0 r) d))
    (h1 : ∀ (k : Fin 2048) (d : Fin 64), x1 (ix3 (0 : Fin 1) k d) = K (ix4 b h k d))
    (h2 : ∀ (k : Fin 2048) (d : Fin 64), x2 (ix3 (0 : Fin 1) k d) = V (ix4 b h k d))
    (hm : ∀ (r : Fin 256) (k : Fin 2048), xm (ix2 r k) = M (ix4 (0 : Fin 1) (0 : Fin 1) (rowOf q0 hq0 r) k))
    (u : Fin 1) (r : Fin 256) (d : Fin 64) :
    k0_pay3 x0 x1 x2 xm (ix3 u r d) = ctx Q K V M (ix4 b h (rowOf q0 hq0 r) d) := by
  refine (pay3_apply x0 x1 x2 xm u r d).trans ?_
  unfold ctx
  simp only [bprob_eq Q K M b h q0 hq0 x0 x1 xm h0 h1 hm, h2]

end Cert.Attention.Body

end
-- ==== Proof.Layout.lean ====
/-
  The kernel works on arrays whose batch axis (4) and head axis (16) are merged into one leading axis of 64,
  and on the mask without its two unit axes; the reference works on the four-axis arrays.  Row-major order
  makes the merged coordinate g = 16·b + h, so b = g / 16 and h = g % 16.  This module reads the three
  re-layouts at an index: splitting a merged array's index, merging a four-axis array and casting it back
  (the identity), and the mask with its unit axes dropped.
-/
import Idealize.ShloMosaic.Lib.Pipeline.Value
import Idealize.ShloMosaic.Lib.ValueIdx

noncomputable section

namespace Cert.Attention

open Idealize.ShloMosaic Idealize.ShloMosaic.ValueIdx

variable {α : Type}

/-- The batch coordinate of a merged batch-and-head coordinate. -/
abbrev batchOf (g : Fin 64) : Fin 4 := ⟨g.val / 16, by have := g.isLt; omega⟩
/-- The head coordinate of a merged batch-and-head coordinate. -/
abbrev headOf (g : Fin 64) : Fin 16 := ⟨g.val % 16, by omega⟩

/-- A [4, 16, n, m] array with batch and head merged: entry (g, q, d) is entry (g / 16, g % 16, q, d). -/
def merged {n m : Nat} (A : (⟨4, ![4, 16, n, m]⟩ : Shape).Idx → α) : (⟨3, ![64, n, m]⟩ : Shape).Idx → α :=
  fun j => A (ix4 (batchOf (j 0)) (headOf (j 0)) (j 1) (j 2))

theorem merged_apply {n m : Nat} (A : (⟨4, ![4, 16, n, m]⟩ : Shape).Idx → α) (g : Fin 64) (q : Fin n) (d : Fin m) :
    merged A (ix3 g q d) = A (ix4 (batchOf g) (headOf g) q d) := rfl

/-- The merged array at an index whose coordinates are known. -/
theorem merged_at {n m : Nat} (A : (⟨4, ![4, 16, n, m]⟩ : Shape).Idx → α) (j : (⟨3, ![64, n, m]⟩ : Shape).Idx)
    (g : Fin 64) (q : Fin n) (d : Fin m) (h0 : (j 0).val = g.val) (h1 : (j 1).val = q.val) (h2 : (j 2).val = d.val) :
    merged A j = A (ix4 (batchOf g) (headOf g) q d) := by
  obtain rfl : j = ix3 g q d := funext fun a => Fin.ext (by
    match a with
    | ⟨0, _⟩ => exact h0
    | ⟨1, _⟩ => exact h1
    | ⟨2, _⟩ => exact h2)
  rfl

/-- The row-major cast of a [4, 16, n, m] array to [64, n, m] is the merged array. -/
theorem shapeCast_merge {n m : Nat} (A : (⟨4, ![4, 16, n, m]⟩ : Shape).Idx → α)
    (h : (⟨4, ![4, 16, n, m]⟩ : Shape).ShapeCasts ⟨3, ![64, n, m]⟩) :
    shapeCast ⟨3, ![64, n, m]⟩ A h = merged A := by
  funext j
  obtain ⟨g, q, d, rfl⟩ : ∃ (g : Fin 64) (q : Fin n) (d : Fin m), j = ix3 g q d := ⟨j 0, j 1, j 2, eq_ix3 j⟩
  rw [merged_apply]
  refine shapeCast_apply A h _ _ ?_
  rw [Shape.rowMajor_val_four, Shape.rowMajor_val_three]
  show (((g.val / 16) * 16 + g.val % 16) * n + q.val) * m + d.val = (g.val * n + q.val) * m + d.val
  rw [Nat.div_add_mod' g.val 16]

/-- Casting the merged array back to [4, 16, n, m] gives the four-axis array again. -/
theorem shapeCast_merged {n m : Nat} (A : (⟨4, ![4, 16, n, m]⟩ : Shape).Idx → α)
    (h : (⟨3, ![64, n, m]⟩ : Shape).ShapeCasts ⟨4, ![4, 16, n, m]⟩) :
    shapeCast ⟨4, ![4, 16, n, m]⟩ (merged A) h = A := by
  funext i
  obtain ⟨b, hd, q, d, rfl⟩ : ∃ (b : Fin 4) (hd : Fin 16) (q : Fin n) (d : Fin m), i = ix4 b hd q d :=
    ⟨i 0, i 1, i 2, i 3, eq_ix4 i⟩
  have hb : b.val < 4 := b.isLt
  have hh : hd.val < 16 := hd.isLt
  refine (shapeCast_apply (merged A) h (ix4 b hd q d) (ix3 ⟨b.val * 16 + hd.val, by omega⟩ q d) ?_).trans ?_
  · rw [Shape.rowMajor_val_four, Shape.rowMajor_val_three]
    rfl
  · rw [merged_apply]
    refine congrArg A ?_
    have e1 : (b.val * 16 + hd.val) / 16 = b.val := by omega
    have e2 : (b.val * 16 + hd.val) % 16 = hd.val := by omega
    funext a
    match a with
    | ⟨0, _⟩ => exact Fin.ext e1
    | ⟨1, _⟩ => exact Fin.ext e2
    | ⟨2, _⟩ => rfl
    | ⟨3, _⟩ => rfl

/-- A [1, 1, a, b] array cast to [a, b] reads (0, 0, p, c) at (p, c). -/
theorem shapeCast_drop2 {a b : Nat} (X : (⟨4, ![1, 1, a, b]⟩ : Shape).Idx → α)
    (h : (⟨4, ![1, 1, a, b]⟩ : Shape).ShapeCasts ⟨2, ![a, b]⟩) (p : Fin a) (c : Fin b) :
    shapeCast ⟨2, ![a, b]⟩ X h (ix2 p c) = X (ix4 (0 : Fin 1) (0 : Fin 1) p c) :=
  shapeCast_apply X h _ _ (by
    rw [Shape.rowMajor_val_four, Shape.rowMajor_val_two]
    show ((0 * 1 + 0) * a + p.val) * b + c.val = p.val * b + c.val
    simp)

end Cert.Attention

end
-- ==== Proof.Blocks.lean ====
/-
  What one grid point (g, qi) of the 64 × 8 grid reads and writes, as blocks of whole arrays.

  The point's query block is rows 256·qi … 256·qi + 255 of merged batch-and-head g of the (reshaped) queries,
  its key and value blocks are all rows of g, and the mask is resident whole, the body slicing rows
  256·qi … 256·qi + 255 out of it.  The host reshapes before the region merge batch and head (g = 16·b + h) and
  drop the mask's unit axes.  So what the point writes back is block (g, qi) of the specification's
  probabilities and of its context, with batch and head merged.
-/
import proofs.«135013_j50483045597399_2_alg».proof.Proof.Gen.KernelIdeal.Frame
import proofs.«135013_j50483045597399_2_alg».proof.Proof.BlockSpec
import proofs.«135013_j50483045597399_2_alg».proof.Proof.Layout
import Idealize.ShloMosaic.Lib.Pipeline.Value
import Idealize.ShloMosaic.Lib.StableHlo.Run
import Idealize.ShloMosaic.Lib.Tactic

set_option maxRecDepth 16384

noncomputable section

namespace Cert.Attention.Kernel

open Idealize.ShloMosaic Idealize.ShloMosaic.TcCoe Idealize.SL.Sem Idealize.ShloMosaic.Tactic
open Idealize.ShloMosaic.ValueIdx
open Idealize.ShloMosaic.Pipeline (Dat)
open Cert.KernelIdeal Cert.KernelIdeal.Gen Cert.Attention Cert.Attention.Body

/-! ## The body's stores, as the payloads of the blocks it loaded (at any float instance) -/

section Pieces

variable {F : FTy → Type} [FloatOps F]

theorem hz3 : (![0, 0, 0] : Fin 3 → Nat) = fun _ => 0 := funext fun a => by fin_cases a <;> rfl

/-- The probabilities block left in the first output's staging buffer: the second payload of the query block, the
    key block and the mask rows the body slices at the point's row offset. -/
theorem out4_eq (c : Dev nD) (i : grid0.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S2048x2048 .f32) (harg5 : arg5.IsWhole) (arg6 : Memref sig .tc .vmem S1x256x2048 .f32) (harg6 : arg6.IsWhole) (arg7 : Memref sig .tc .vmem S1x256x64 .f32) (harg7 : arg7.IsWhole)
    (x0 : Vec F S1x256x64 .f32) (x1 : Vec F S1x2048x64 .f32) (x2 : Vec F S1x2048x64 .f32) (x3 : Vec F S2048x2048 .f32) :
    out0_A_4 c i arg2 harg2 arg3 harg3 arg4 harg4 arg5 harg5 arg6 harg6 arg7 harg7 x0 x1 x2 x3
      = k0_pay2 x0 x1 (View.ld x3 (Rect.unit (s := S2048x2048) (k0_off1 i) S256x2048.size (k0_off1_inb i))) := by
  unfold out0_A_4
  rw [View.read_writes_eq_canon _ _ _ (cover0_A_4 c i arg2 harg2 arg3 harg3 arg4 harg4 arg5 harg5 arg6 harg6 arg7 harg7 x0 x1 x2 x3)]
  unfold kernelRun0_A
  dsimp only
  rw [View.canon_unit_zero hz3]
  simp only [View.readAt_eq_ld, harg2.read_unread, harg3.read_unread, harg5.read_unread, View.ld_unit_zero (S := S1x256x64) hz3, View.ld_unit_zero (S := S1x2048x64) hz3]

/-- The context block left in the second output's staging buffer: the third payload of the same blocks and the
    value block. -/
theorem out5_eq (c : Dev nD) (i : grid0.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S2048x2048 .f32) (harg5 : arg5.IsWhole) (arg6 : Memref sig .tc .vmem S1x256x2048 .f32) (harg6 : arg6.IsWhole) (arg7 : Memref sig .tc .vmem S1x256x64 .f32) (harg7 : arg7.IsWhole)
    (x0 : Vec F S1x256x64 .f32) (x1 : Vec F S1x2048x64 .f32) (x2 : Vec F S1x2048x64 .f32) (x3 : Vec F S2048x2048 .f32) :
    out0_A_5 c i arg2 harg2 arg3 harg3 arg4 harg4 arg5 harg5 arg6 harg6 arg7 harg7 x0 x1 x2 x3
      = k0_pay3 x0 x1 x2 (View.ld x3 (Rect.unit (s := S2048x2048) (k0_off1 i) S256x2048.size (k0_off1_inb i))) := by
  unfold out0_A_5
  rw [View.read_writes_eq_canon _ _ _ (cover0_A_5 c i arg2 harg2 arg3 harg3 arg4 harg4 arg5 harg5 arg6 harg6 arg7 harg7 x0 x1 x2 x3)]
  unfold kernelRun0_A
  dsimp only
  rw [View.canon_unit_zero hz3]
  simp only [View.readAt_eq_ld, harg2.read_unread, harg3.read_unread, harg4.read_unread, harg5.read_unread, View.ld_unit_zero (S := S1x256x64) hz3, View.ld_unit_zero (S := S1x2048x64) hz3]

/-- The mask rows the body slices: row r of the slice is row 256·qi + r of the resident mask. -/
theorem maskrows_apply (x3 : Vec F S2048x2048 .f32) (i : grid0.Coords) (r : Fin 256) (k : Fin 2048)
    (j : S2048x2048.Idx) (hj0 : (j 0).val = 256 * (i 1).val + r.val) (hj1 : (j 1).val = k.val) :
    View.ld x3 (Rect.unit (s := S2048x2048) (k0_off1 i) S256x2048.size (k0_off1_inb i)) (ix2 r k) = x3 j := by
  have e0 : k0_off1 i 0 = 256 * (i 1).val := by rw [k0_off1_eq]; rfl
  have e1 : k0_off1 i 1 = 0 := by rw [k0_off1_eq]; rfl
  show x3 _ = x3 j
  refine congrArg x3 (funext fun a => Fin.ext ?_)
  match a with
  | ⟨0, _⟩ => show k0_off1 i 0 + 1 * r.val = (j 0).val; rw [e0, hj0]; omega
  | ⟨1, _⟩ => show k0_off1 i 1 + 1 * k.val = (j 1).val; rw [e1, hj1]; omega

end Pieces

/-! ## The arrays the region finds, and each window's block read at an index -/

section Arrays

variable (m : (ℓ : Loc nD τ sig) → Buf (Elt Ideal) ℓ)

/-- The queries, keys, values and mask as launched. -/
abbrev argQ (c : Dev nD) : Arr := m ((c : Thread nD τ).loc main_arg0)
abbrev argK (c : Dev nD) : Arr := m ((c : Thread nD τ).loc main_arg1)
abbrev argV (c : Dev nD) : Arr := m ((c : Thread nD τ).loc main_arg2)
abbrev argM (c : Dev nD) : Mask := m ((c : Thread nD τ).loc main_arg3)

/-- The probabilities array the region leaves: the specification's, batch and head merged. -/
abbrev G4 (c : Dev nD) : S64x2048x2048.Idx → EReal := merged (attn (argQ m c) (argK m c) (argM m c))
/-- The context array the region leaves: the specification's, batch and head merged. -/
abbrev G5 (c : Dev nD) : S64x2048x64.Idx → EReal := merged (ctx (argQ m c) (argK m c) (argV m c) (argM m c))

/-- The region finds the queries with batch and head merged. -/
theorem V_v0 (c : Dev nD) : (V m c main_v0 : S64x2048x64.Idx → EReal) = merged (argQ m c) := by
  rw [← shapeCast_merge (argQ m c) shapeCasts_S4x16x2048x64_S64x2048x64]
  show StableHlo.after hostOps0 (fun b => m (c, b)) (Proc.devRef .tc main_v0) = _
  after_results
  rfl
theorem V_v1 (c : Dev nD) : (V m c main_v1 : S64x2048x64.Idx → EReal) = merged (argK m c) := by
  rw [← shapeCast_merge (argK m c) shapeCasts_S4x16x2048x64_S64x2048x64]
  show StableHlo.after hostOps0 (fun b => m (c, b)) (Proc.devRef .tc main_v1) = _
  after_results
  rfl
theorem V_v2 (c : Dev nD) : (V m c main_v2 : S64x2048x64.Idx → EReal) = merged (argV m c) := by
  rw [← shapeCast_merge (argV m c) shapeCasts_S4x16x2048x64_S64x2048x64]
  show StableHlo.after hostOps0 (fun b => m (c, b)) (Proc.devRef .tc main_v2) = _
  after_results
  rfl
/-- The region finds the mask with its two unit axes dropped. -/
theorem V_v3 (c : Dev nD) : (V m c main_v3 : S2048x2048.Idx → EReal) = shapeCast S2048x2048 (argM m c) shapeCasts_S1x1x2048x2048_S2048x2048 := by
  show StableHlo.after hostOps0 (fun b => m (c, b)) (Proc.devRef .tc main_v3) = _
  after_results
  rfl

/-- The query window's block at a point: row r of the block is row (block row index)·256 + r of the merged
    batch-and-head g the block column index names. -/
theorem iblk0_apply (c : Dev nD) (t : Fin cfg0.N) (u : Fin 1) (r : Fin 256) (d : Fin 64) (g : Fin 64) (q : Fin 2048)
    (hg : win0_0.index t (0 : Fin 3) = g.val) (hq : win0_0.index t (1 : Fin 3) * 256 + r.val = q.val)
    (h2 : win0_0.index t (2 : Fin 3) = 0) :
    (iblk m c 0 t : Vec Ideal S1x256x64 .f32) (ix3 u r d) = argQ m c (ix4 (batchOf g) (headOf g) q d) := by
  have hu : u.val = 0 := by omega
  unfold iblk
  rw [View.read_apply]
  show V m c main_v0 _ = _
  refine (congrFun (V_v0 m c) _).trans ?_
  refine merged_at (argQ m c) _ g q d ?_ ?_ ?_
  · show win0_0.index t (0 : Fin 3) * 1 + 1 * u.val = g.val; omega
  · show win0_0.index t (1 : Fin 3) * 256 + 1 * r.val = q.val; omega
  · show win0_0.index t (2 : Fin 3) * 64 + 1 * d.val = d.val; omega

/-- The key window's block at a point: all 2048 rows of merged batch-and-head g. -/
theorem iblk1_apply (c : Dev nD) (t : Fin cfg0.N) (u : Fin 1) (k : Fin 2048) (d : Fin 64) (g : Fin 64)
    (hg : win0_1.index t (0 : Fin 3) = g.val) (h1 : win0_1.index t (1 : Fin 3) = 0) (h2 : win0_1.index t (2 : Fin 3) = 0) :
    (iblk m c 1 t : Vec Ideal S1x2048x64 .f32) (ix3 u k d) = argK m c (ix4 (batchOf g) (headOf g) k d) := by
  have hu : u.val = 0 := by omega
  unfold iblk
  rw [View.read_apply]
  show V m c main_v1 _ = _
  refine (congrFun (V_v1 m c) _).trans ?_
  refine merged_at (argK m c) _ g k d ?_ ?_ ?_
  · show win0_1.index t (0 : Fin 3) * 1 + 1 * u.val = g.val; omega
  · show win0_1.index t (1 : Fin 3) * 2048 + 1 * k.val = k.val; omega
  · show win0_1.index t (2 : Fin 3) * 64 + 1 * d.val = d.val; omega

/-- The value window's block at a point: all 2048 rows of merged batch-and-head g. -/
theorem iblk2_apply (c : Dev nD) (t : Fin cfg0.N) (u : Fin 1) (k : Fin 2048) (d : Fin 64) (g : Fin 64)
    (hg : win0_2.index t (0 : Fin 3) = g.val) (h1 : win0_2.index t (1 : Fin 3) = 0) (h2 : win0_2.index t (2 : Fin 3) = 0) :
    (iblk m c 2 t : Vec Ideal S1x2048x64 .f32) (ix3 u k d) = argV m c (ix4 (batchOf g) (headOf g) k d) := by
  have hu : u.val = 0 := by omega
  unfold iblk
  rw [View.read_apply]
  show V m c main_v2 _ = _
  refine (congrFun (V_v2 m c) _).trans ?_
  refine merged_at (argV m c) _ g k d ?_ ?_ ?_
  · show win0_2.index t (0 : Fin 3) * 1 + 1 * u.val = g.val; omega
  · show win0_2.index t (1 : Fin 3) * 2048 + 1 * k.val = k.val; omega
  · show win0_2.index t (2 : Fin 3) * 64 + 1 * d.val = d.val; omega

/-- The mask window's one block is the whole mask. -/
theorem iblk3_apply (c : Dev nD) (t : Fin cfg0.N) (p k : Fin 2048)
    (h0 : win0_3.index t (0 : Fin 2) = 0) (h1 : win0_3.index t (1 : Fin 2) = 0) :
    (iblk m c 3 t : Vec Ideal S2048x2048 .f32) (ix2 p k) = argM m c (ix4 (0 : Fin 1) (0 : Fin 1) p k) := by
  unfold iblk
  rw [View.read_apply]
  show V m c main_v3 _ = _
  refine (congrFun (V_v3 m c) _).trans ?_
  refine (congrArg (shapeCast S2048x2048 (argM m c) shapeCasts_S1x1x2048x2048_S2048x2048) (?_ : _ = ix2 p k)).trans (shapeCast_drop2 (argM m c) _ p k)
  funext a
  apply Fin.ext
  match a with
  | ⟨0, _⟩ => show win0_3.index t (0 : Fin 2) * 2048 + 1 * p.val = p.val; omega
  | ⟨1, _⟩ => show win0_3.index t (1 : Fin 2) * 2048 + 1 * k.val = k.val; omega

end Arrays

end Cert.Attention.Kernel

end
-- ==== Proof.Grid.lean ====
/-
  The 64 × 8 grid and the printed index maps, decided once over its 512 points: point t is the pair
  (g, qi) = (t / 8, t % 8) of a merged batch-and-head and a block of 256 query rows; the query, probabilities and
  context windows take block (g, qi, 0), the key and value windows block (g, 0, 0), the mask its one block, and the
  body's row offset into the mask is 256·qi.
-/
import proofs.«135013_j50483045597399_2_alg».proof.Proof.Gen.KernelIdeal.Points
import proofs.«135013_j50483045597399_2_alg».proof.Proof.Gen.KernelIdeal.Launch

noncomputable section

namespace Cert.Attention.Kernel

open Idealize.ShloMosaic
open Cert.KernelIdeal Cert.KernelIdeal.Gen

/-- The probabilities window's block index at point t. -/
theorem index4 : ∀ t : Fin cfg0.N,
    win0_4.index t (0 : Fin 3) = t.val / 8 ∧ win0_4.index t (1 : Fin 3) = t.val % 8 ∧ win0_4.index t (2 : Fin 3) = 0 :=
  (by decide +kernel : ∀ t : Fin grid0.N, _)

/-- Every input window moves with the probabilities window (window 4): the query and context windows on both
    block axes, the key and value windows on the merged batch-and-head axis only, the mask not at all; and the
    body's row offset is the probabilities window's row-block index. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 2) = 0 ∧ win0_3.index t (1 : Fin 2) = 0
    ∧ win0_5.index t (0 : Fin 3) = win0_4.index t (0 : Fin 3) ∧ win0_5.index t (1 : Fin 3) = win0_4.index t (1 : Fin 3) ∧ win0_5.index t (2 : Fin 3) = 0
    ∧ win0_4.index t (2 : Fin 3) = 0
    ∧ (grid0.coords t 1).val = win0_4.index t (1 : Fin 3)
    ∧ win0_4.index t (0 : Fin 3) < 64 ∧ win0_4.index t (1 : Fin 3) < 8 :=
  (by decide +kernel : ∀ t : Fin grid0.N, _)

/-- The point of merged batch-and-head g and row block qi. -/
abbrev pointOf (g qi : Nat) (hg : g < 64) (hqi : qi < 8) : Fin cfg0.N :=
  ⟨g * 8 + qi, by have : cfg0.N = 512 := N_0; omega⟩

theorem index4_pointOf (g qi : Nat) (hg : g < 64) (hqi : qi < 8) :
    win0_4.index (pointOf g qi hg hqi) (0 : Fin 3) = g ∧ win0_4.index (pointOf g qi hg hqi) (1 : Fin 3) = qi
      ∧ win0_4.index (pointOf g qi hg hqi) (2 : Fin 3) = 0 := by
  obtain ⟨h0, h1, h2⟩ := index4 (pointOf g qi hg hqi)
  refine ⟨h0.trans ?_, h1.trans ?_, h2⟩
  · show (g * 8 + qi) / 8 = g; omega
  · show (g * 8 + qi) % 8 = qi; omega

end Cert.Attention.Kernel

end
-- ==== Proof.Written4.lean ====
/-
  What a grid point writes back to the probabilities array.  Point t = (g, qi) stores the body's quotients of
  its blocks; by the block lemma they are rows 256·qi … 256·qi + 255 of merged batch-and-head g of the
  specification's probabilities: block (g, qi, 0) of the merged array.
-/
import proofs.«135013_j50483045597399_2_alg».proof.Proof.Blocks
import proofs.«135013_j50483045597399_2_alg».proof.Proof.Grid

set_option maxRecDepth 16384

noncomputable section

namespace Cert.Attention.Kernel

open Idealize.ShloMosaic Idealize.ShloMosaic.TcCoe Idealize.SL.Sem Idealize.ShloMosaic.Tactic
open Idealize.ShloMosaic.ValueIdx
open Idealize.ShloMosaic.Pipeline (Dat)
open Cert.KernelIdeal Cert.KernelIdeal.Gen Cert.Attention Cert.Attention.Body

variable (m : (ℓ : Loc nD τ sig) → Buf (Elt Ideal) ℓ) (ρ : Dev nD → PrngReg)

/-- Point t writes back its block of the merged probabilities. -/
theorem flushed4_eq (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  unfold outsAt0
  dsimp only
  rw [out4_eq]
  obtain ⟨e00, e01, e02, e10, e11, e12, e20, e21, e22, e30, e31, e50, e51, e52, e42, ec1, l0, l1⟩ := idx_facts t
  have hq0 : 256 * win0_4.index t (1 : Fin 3) + 256 ≤ 2048 := by omega
  refine funext fun (y : S1x256x2048.Idx) => ?_
  obtain ⟨u, r, k, rfl⟩ : ∃ (u : Fin 1) (r : Fin 256) (k : Fin 2048), y = ix3 u r k := ⟨y 0, y 1, y 2, eq_ix3 y⟩
  have hu : u.val = 0 := by omega
  show k0_pay2 (iblk m c 0 t) (iblk m c 1 t) (View.ld (iblk m c 3 t) (Rect.unit (s := S2048x2048) (k0_off1 (grid0.coords t)) S256x2048.size (k0_off1_inb (grid0.coords t)))) (ix3 u r k)
    = G4 m c (((cfg0.win 4).blk t).view.emb (ix3 u r k))
  refine (probs_block (argQ m c) (argK m c) (argM m c) (batchOf ⟨win0_4.index t (0 : Fin 3), l0⟩) (headOf ⟨win0_4.index t (0 : Fin 3), l0⟩)
    (256 * win0_4.index t (1 : Fin 3)) hq0 (iblk m c 0 t) (iblk m c 1 t) _ ?_ ?_ ?_ u r k).trans ?_
  · exact fun r d => iblk0_apply m c t 0 r d ⟨win0_4.index t (0 : Fin 3), l0⟩ (rowOf _ hq0 r) e00 (by show _ = 256 * win0_4.index t (1 : Fin 3) + r.val; omega) e02
  · exact fun k d => iblk1_apply m c t 0 k d ⟨win0_4.index t (0 : Fin 3), l0⟩ e10 e11 e12
  · exact fun r k => (maskrows_apply (iblk m c 3 t) (grid0.coords t) r k (ix2 (rowOf _ hq0 r) k)
      (by show 256 * win0_4.index t (1 : Fin 3) + r.val = 256 * (grid0.coords t 1).val + r.val; omega) rfl).trans
      (iblk3_apply m c t (rowOf _ hq0 r) k e30 e31)
  · refine (merged_at _ _ ⟨win0_4.index t (0 : Fin 3), l0⟩ (rowOf _ hq0 r) k ?_ ?_ ?_).symm
    · show win0_4.index t (0 : Fin 3) * 1 + 1 * u.val = win0_4.index t (0 : Fin 3); omega
    · show win0_4.index t (1 : Fin 3) * 256 + 1 * r.val = 256 * win0_4.index t (1 : Fin 3) + r.val; omega
    · show win0_4.index t (2 : Fin 3) * 2048 + 1 * k.val = k.val; omega

end Cert.Attention.Kernel

end
-- ==== Proof.Written5.lean ====
/-
  What a grid point writes back to the context array.  Point t = (g, qi) stores the body's context block of
  its blocks; by the block lemma it is rows 256·qi … 256·qi + 255 of merged batch-and-head g of the
  specification's context: block (g, qi, 0) of the merged array.
-/
import proofs.«135013_j50483045597399_2_alg».proof.Proof.Blocks
import proofs.«135013_j50483045597399_2_alg».proof.Proof.Grid

set_option maxRecDepth 16384

noncomputable section

namespace Cert.Attention.Kernel

open Idealize.ShloMosaic Idealize.ShloMosaic.TcCoe Idealize.SL.Sem Idealize.ShloMosaic.Tactic
open Idealize.ShloMosaic.ValueIdx
open Idealize.ShloMosaic.Pipeline (Dat)
open Cert.KernelIdeal Cert.KernelIdeal.Gen Cert.Attention Cert.Attention.Body

variable (m : (ℓ : Loc nD τ sig) → Buf (Elt Ideal) ℓ) (ρ : Dev nD → PrngReg)

/-- Point t writes back its block of the merged context. -/
theorem flushed5_eq (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  unfold outsAt0
  dsimp only
  rw [out5_eq]
  obtain ⟨e00, e01, e02, e10, e11, e12, e20, e21, e22, e30, e31, e50, e51, e52, e42, ec1, l0, l1⟩ := idx_facts t
  have hq0 : 256 * win0_4.index t (1 : Fin 3) + 256 ≤ 2048 := by omega
  refine funext fun (y : S1x256x64.Idx) => ?_
  obtain ⟨u, r, d, rfl⟩ : ∃ (u : Fin 1) (r : Fin 256) (d : Fin 64), y = ix3 u r d := ⟨y 0, y 1, y 2, eq_ix3 y⟩
  have hu : u.val = 0 := by omega
  show k0_pay3 (iblk m c 0 t) (iblk m c 1 t) (iblk m c 2 t) (View.ld (iblk m c 3 t) (Rect.unit (s := S2048x2048) (k0_off1 (grid0.coords t)) S256x2048.size (k0_off1_inb (grid0.coords t)))) (ix3 u r d)
    = G5 m c (((cfg0.win 5).blk t).view.emb (ix3 u r d))
  refine (ctx_block (argQ m c) (argK m c) (argV m c) (argM m c) (batchOf ⟨win0_4.index t (0 : Fin 3), l0⟩) (headOf ⟨win0_4.index t (0 : Fin 3), l0⟩)
    (256 * win0_4.index t (1 : Fin 3)) hq0 (iblk m c 0 t) (iblk m c 1 t) (iblk m c 2 t) _ ?_ ?_ ?_ ?_ u r d).trans ?_
  · exact fun r d => iblk0_apply m c t 0 r d ⟨win0_4.index t (0 : Fin 3), l0⟩ (rowOf _ hq0 r) e00 (by show _ = 256 * win0_4.index t (1 : Fin 3) + r.val; omega) e02
  · exact fun k d => iblk1_apply m c t 0 k d ⟨win0_4.index t (0 : Fin 3), l0⟩ e10 e11 e12
  · exact fun k d => iblk2_apply m c t 0 k d ⟨win0_4.index t (0 : Fin 3), l0⟩ e20 e21 e22
  · exact fun r k => (maskrows_apply (iblk m c 3 t) (grid0.coords t) r k (ix2 (rowOf _ hq0 r) k)
      (by show 256 * win0_4.index t (1 : Fin 3) + r.val = 256 * (grid0.coords t 1).val + r.val; omega) rfl).trans
      (iblk3_apply m c t (rowOf _ hq0 r) k e30 e31)
  · refine (merged_at _ _ ⟨win0_4.index t (0 : Fin 3), l0⟩ (rowOf _ hq0 r) d ?_ ?_ ?_).symm
    · show win0_5.index t (0 : Fin 3) * 1 + 1 * u.val = win0_4.index t (0 : Fin 3); omega
    · show win0_5.index t (1 : Fin 3) * 256 + 1 * r.val = 256 * win0_4.index t (1 : Fin 3) + r.val; omega
    · show win0_5.index t (2 : Fin 3) * 64 + 1 * d.val = d.val; omega

end Cert.Attention.Kernel

end
-- ==== Proof.Final.lean ====
/-
  The two output arrays after the region.  Entry (g, q, ·) of either array lies in the block of the point
  (g, q / 256); every point writes its block of the merged specification back; so each array ends holding the
  merged specification (probabilities, resp. context).
-/
import proofs.«135013_j50483045597399_2_alg».proof.Proof.Written4
import proofs.«135013_j50483045597399_2_alg».proof.Proof.Written5

set_option maxRecDepth 16384

noncomputable section

namespace Cert.Attention.Kernel

open Idealize.ShloMosaic Idealize.ShloMosaic.TcCoe Idealize.SL.Sem Idealize.ShloMosaic.Tactic
open Idealize.ShloMosaic.ValueIdx
open Idealize.ShloMosaic.Pipeline (Dat)
open Cert.KernelIdeal Cert.KernelIdeal.Gen Cert.Attention Cert.Attention.Body

variable (m : (ℓ : Loc nD τ sig) → Buf (Elt Ideal) ℓ) (ρ : Dev nD → PrngReg)

theorem mem_blk4 (t : Fin cfg0.N) (i : S64x2048x2048.Idx) :
    i ∈ ((cfg0.win 4).blk t).view.set ↔ ∀ a : Fin 3, win0_4.index t a * S1x256x2048.size a ≤ (i a).val ∧ (i a).val < win0_4.index t a * S1x256x2048.size a + S1x256x2048.size a := by
  show i ∈ ((View.whole main_v4_0).slice (win0_4.rect t)).set ↔ _
  rw [View.set_slice_whole, Rect.mem_set_unit]
  exact Iff.rfl

theorem mem_blk5 (t : Fin cfg0.N) (i : S64x2048x64.Idx) :
    i ∈ ((cfg0.win 5).blk t).view.set ↔ ∀ a : Fin 3, win0_5.index t a * S1x256x64.size a ≤ (i a).val ∧ (i a).val < win0_5.index t a * S1x256x64.size a + S1x256x64.size a := by
  show i ∈ ((View.whole main_v4_1).slice (win0_5.rect t)).set ↔ _
  rw [View.set_slice_whole, Rect.mem_set_unit]
  exact Iff.rfl

/-- Entry (g, q, k) of the probabilities array is in the block of the point (g, q / 256). -/
theorem cover4 (i : S64x2048x2048.Idx) :
    ∃ t : Fin cfg0.N, (cfg0.win 4).flush t = true ∧ i ∈ ((cfg0.win 4).blk t).view.set := by
  have hi0 : (i 0).val < 64 := (i 0).isLt
  have hi1 : (i 1).val < 2048 := (i 1).isLt
  have hi2 : (i 2).val < 2048 := (i 2).isLt
  have hqi : (i 1).val / 256 < 8 := by omega
  obtain ⟨q0, q1, q2⟩ := index4_pointOf (i 0).val ((i 1).val / 256) hi0 hqi
  refine ⟨pointOf (i 0).val ((i 1).val / 256) hi0 hqi, flush0_4 _, ?_⟩
  rw [mem_blk4]
  intro a
  match a with
  | ⟨0, _⟩ => show win0_4.index _ (0 : Fin 3) * 1 ≤ (i 0).val ∧ (i 0).val < win0_4.index _ (0 : Fin 3) * 1 + 1; rw [q0]; omega
  | ⟨1, _⟩ => show win0_4.index _ (1 : Fin 3) * 256 ≤ (i 1).val ∧ (i 1).val < win0_4.index _ (1 : Fin 3) * 256 + 256; rw [q1]; omega
  | ⟨2, _⟩ => show win0_4.index _ (2 : Fin 3) * 2048 ≤ (i 2).val ∧ (i 2).val < win0_4.index _ (2 : Fin 3) * 2048 + 2048; rw [q2]; omega

/-- Entry (g, q, d) of the context array is in the block of the point (g, q / 256). -/
theorem cover5 (i : S64x2048x64.Idx) :
    ∃ t : Fin cfg0.N, (cfg0.win 5).flush t = true ∧ i ∈ ((cfg0.win 5).blk t).view.set := by
  have hi0 : (i 0).val < 64 := (i 0).isLt
  have hi1 : (i 1).val < 2048 := (i 1).isLt
  have hi2 : (i 2).val < 64 := (i 2).isLt
  have hqi : (i 1).val / 256 < 8 := by omega
  obtain ⟨q0, q1, q2⟩ := index4_pointOf (i 0).val ((i 1).val / 256) hi0 hqi
  obtain ⟨e00, e01, e02, e10, e11, e12, e20, e21, e22, e30, e31, e50, e51, e52, e42, ec1, l0, l1⟩ :=
    idx_facts (pointOf (i 0).val ((i 1).val / 256) hi0 hqi)
  refine ⟨pointOf (i 0).val ((i 1).val / 256) hi0 hqi, flush0_5 _, ?_⟩
  rw [mem_blk5]
  intro a
  match a with
  | ⟨0, _⟩ => show win0_5.index _ (0 : Fin 3) * 1 ≤ (i 0).val ∧ (i 0).val < win0_5.index _ (0 : Fin 3) * 1 + 1; rw [e50, q0]; omega
  | ⟨1, _⟩ => show win0_5.index _ (1 : Fin 3) * 256 ≤ (i 1).val ∧ (i 1).val < win0_5.index _ (1 : Fin 3) * 256 + 256; rw [e51, q1]; omega
  | ⟨2, _⟩ => show win0_5.index _ (2 : Fin 3) * 64 ≤ (i 2).val ∧ (i 2).val < win0_5.index _ (2 : Fin 3) * 64 + 64; rw [e52]; omega

/-- The probabilities array after the region. -/
theorem final4 (c : Dev nD) : (dats m 0 c).arrAt 4 cfg0.N = G4 m c :=
  (dats m 0 c).arrAt_eq_of_cover 4 (G4 m c) (fun t _ => flushed4_eq m c t) cover4

/-- The context array after the region. -/
theorem final5 (c : Dev nD) : (dats m 0 c).arrAt 5 cfg0.N = G5 m c :=
  (dats m 0 c).arrAt_eq_of_cover 5 (G5 m c) (fun t _ => flushed5_eq m c t) cover5

end Cert.Attention.Kernel

end
-- ==== Proof.Run.lean ====
/-
  The kernel program's run, read.  After the region the two reshapes split the merged batch-and-head axis of the
  two output arrays again, so the program's results are the specification's context and probabilities of the
  launched arguments, and the arguments are unchanged.
-/
import proofs.«135013_j50483045597399_2_alg».proof.Proof.Final

set_option maxRecDepth 16384

noncomputable section

namespace Cert.Attention.Kernel

open Idealize.ShloMosaic Idealize.ShloMosaic.TcCoe Idealize.SL.Sem Idealize.ShloMosaic.Tactic
open Idealize.ShloMosaic.ValueIdx
open Idealize.ShloMosaic.Pipeline (Dat)
open Cert.KernelIdeal Cert.KernelIdeal.Gen Cert.Attention Cert.Attention.Body

variable (m : (ℓ : Loc nD τ sig) → Buf (Elt Ideal) ℓ) (ρ : Dev nD → PrngReg)

/-- What the host lines after the region find in the probabilities array. -/
theorem region_v4_0 (c : Dev nD) :
    Pipeline.withArrays (cfgs 0).spec c (V0 m c) (fun w => (dats m 0 c).arrAt w (cfgs 0).N) (Proc.devRef .tc main_v4_0) = G4 m c :=
  (Pipeline.withArrays_arr spec0 launch0.win.arr_inj c _ _ 4).trans (final4 m c)

/-- What the host lines after the region find in the context array. -/
theorem region_v4_1 (c : Dev nD) :
    Pipeline.withArrays (cfgs 0).spec c (V0 m c) (fun w => (dats m 0 c).arrAt w (cfgs 0).N) (Proc.devRef .tc main_v4_1) = G5 m c :=
  (Pipeline.withArrays_arr spec0 launch0.win.arr_inj c _ _ 5).trans (final5 m c)

/-- The program's second result: the probabilities, batch and head split again. -/
theorem tail_v6 (c : Dev nD) :
    Pipeline.afterTail₀ cfgs (dats m) 0 (V0 m) [hostOps1] c main_v6 = attn (argQ m c) (argK m c) (argM m c) := by
  unfold Pipeline.afterTail₀
  show StableHlo.after hostOps1 _ (Proc.devRef .tc main_v6) = _
  after_results
  show shapeCast S4x16x2048x2048 (Pipeline.withArrays (cfgs 0).spec c (V0 m c) (fun w => (dats m 0 c).arrAt w (cfgs 0).N) (Proc.devRef .tc main_v4_0))
    shapeCasts_S64x2048x2048_S4x16x2048x2048 = _
  rw [region_v4_0]
  exact shapeCast_merged _ _

/-- The program's first result: the context, batch and head split again. -/
theorem tail_v5 (c : Dev nD) :
    Pipeline.afterTail₀ cfgs (dats m) 0 (V0 m) [hostOps1] c main_v5 = ctx (argQ m c) (argK m c) (argV m c) (argM m c) := by
  unfold Pipeline.afterTail₀
  show StableHlo.after hostOps1 _ (Proc.devRef .tc main_v5) = _
  after_results
  show shapeCast S4x16x2048x64 (Pipeline.withArrays (cfgs 0).spec c (V0 m c) (fun w => (dats m 0 c).arrAt w (cfgs 0).N) (Proc.devRef .tc main_v4_1))
    shapeCasts_S64x2048x64_S4x16x2048x64 = _
  rw [region_v4_1]
  exact shapeCast_merged _ _

/-- Every weakly fair execution of the idealized kernel program terminates with the context and the probabilities
    of the launched arguments in its two results, and the arguments unchanged. -/
theorem run : θ_run defs (onTc (τ := τ) (main (F := Ideal))) ⟨m, fun _ => 0, ρ⟩ fun r => ∀ c : Dev nD,
      r.2.mem ((c.tc : Thread nD τ).loc main_v5) = ctx (argQ m c) (argK m c) (argV m c) (argM m c)
      ∧ r.2.mem ((c.tc : Thread nD τ).loc main_v6) = attn (argQ m c) (argK m c) (argM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨
      ((h c).2 main_v5 (Pipeline.mem_restRefs_of main_v5 (by decide) (by decide))).trans (tail_v5 m c),
      ((h c).2 main_v6 (Pipeline.mem_restRefs_of main_v6 (by decide) (by decide))).trans (tail_v6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Attention.Kernel

end
-- ==== Proof.lean ====
/-
  The certificate of the fused attention kernel against its reference.

  Both programs compute, for queries Q, keys K, values V ([4, 16, 2048, 64]) and a multiplicative mask M
  ([1, 1, 2048, 2048]), the probabilities  exp(Q·Kᵀ / 8) ∘ M  divided by their row sums plus ε, and the context
  (probabilities · V).  The kernel does it per head and per block of 256 query rows, on arrays whose batch and
  head axes are merged; the reference does it in one batched pass.  Over the extended reals the two are the same
  function (Spec.lean): the kernel's run ends with the specification in its two results (Run.lean), the
  reference's run with the same (RefSpec.lean); the ideal pass rewrote nothing, and the three frames are the
  generated ones.  The inputs' finiteness is not needed: both sides apply the same operations to the same values.
-/
import proofs.«135013_j50483045597399_2_alg».proof.Defs
import proofs.«135013_j50483045597399_2_alg».proof.Proof.Gen.Kernel
import proofs.«135013_j50483045597399_2_alg».proof.Proof.Gen.Kernel.Frame
import proofs.«135013_j50483045597399_2_alg».proof.Proof.Gen.KernelIdeal
import proofs.«135013_j50483045597399_2_alg».proof.Proof.Gen.KernelIdeal.Frame
import proofs.«135013_j50483045597399_2_alg».proof.Proof.Gen.ReferenceIdeal
import proofs.«135013_j50483045597399_2_alg».proof.Proof.Gen.Pre_finite_inputs
import proofs.«135013_j50483045597399_2_alg».proof.Proof.Gen.ReferenceIdeal.Run
import proofs.«135013_j50483045597399_2_alg».proof.Proof.Gen.ReferenceIdeal.Read
import proofs.«135013_j50483045597399_2_alg».proof.Proof.RefSpec
import proofs.«135013_j50483045597399_2_alg».proof.Proof.Run
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the four arguments, both programs end with the specification's context and
    probabilities of those arguments in their results. -/
theorem algebraic : Cert.algebraic_KernelIdeal_ReferenceIdeal := by
  intro m ρ m' ρ' _ hagree
  refine ⟨fun c => Cert.Attention.ctx (Cert.Attention.Kernel.argQ m c) (Cert.Attention.Kernel.argK m c) (Cert.Attention.Kernel.argV m c) (Cert.Attention.Kernel.argM m c),
    fun c => Cert.Attention.attn (Cert.Attention.Kernel.argQ m c) (Cert.Attention.Kernel.argK m c) (Cert.Attention.Kernel.argM m c),
    Cert.Attention.Kernel.run m ρ, ?_⟩
  refine (θ_run Cert.ReferenceIdeal.defs _ _).mono (fun _ h c => ?_) (Cert.ReferenceIdeal.Value.run (F := Ideal) m' ρ')
  obtain ⟨h12, h11, ha0, ha1, ha2, ha3⟩ := h c
  obtain ⟨g0, g1, g2, g3⟩ := hagree c
  refine ⟨h12.trans ?_, h11.trans ?_, ha0, ha1, ha2, ha3⟩
  · rw [g0, g1, g2, g3]
    exact (Cert.ReferenceIdeal.Read.val_main_v12_eq _ _ _ _).trans (Cert.Attention.Ref.ctx_eq _ _ _ _)
  · rw [g0, g1, g3]
    exact (Cert.ReferenceIdeal.Read.val_main_v11_eq _ _ _).trans (Cert.Attention.Ref.attn_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
